-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x6400000 : Shape := ⟨2, ![2, 6400000]⟩
abbrev S4x16 : Shape := ⟨2, ![4, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x4 .f32) (main_arg1 : IVec S2x6400000 32) (main_arg2 : FVec F S4x16 .f32) (main_arg3 : FVec F S16 .f32) (main_arg4 : FVec F S16x8 .f32) (main_arg5 : FVec F S8 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x16 .f32 := Host.absf main_arg2
  let main_cst_0 : FVec F S_ .f32 := constant S_ .f32 0x7F800000#32
  let main_v5 : FVec F S4x16 .f32 := broadcastInDim S4x16 ![] bcast_S_S4x16 main_cst_0
  let main_v6 : IVec S4x16 1 := cmpf .olt main_v4 main_v5
  let main_c_1 : IVec S_ 1 := constantI S_ 1 1#1
  let main_v7 : IVec S_ 1 := (fun x v => Host.reduce IntOp.andi x v reducesTo_S4x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x4 : Shape := ⟨2, ![100000, 4]⟩
abbrev S2x6400000 : Shape := ⟨2, ![2, 6400000]⟩
abbrev S4x16 : Shape := ⟨2, ![4, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S10000x4 : Shape := ⟨2, ![10000, 4]⟩
abbrev S10000x16 : Shape := ⟨2, ![10000, 16]⟩
abbrev S6500000x16 : Shape := ⟨2, ![6500000, 16]⟩
abbrev S1x16 : Shape := ⟨2, ![1, 16]⟩
abbrev S100000x8 : Shape := ⟨2, ![100000, 8]⟩
abbrev S10000x8 : Shape := ⟨2, ![10000, 8]⟩
abbrev S6500000x8 : Shape := ⟨2, ![6500000, 8]⟩
abbrev S1x8 : Shape := ⟨2, ![1, 8]⟩

abbrev nBuf : Space → Nat
  | .hbm => 124
  | .vmem => 20
  | .smem => 0
  | _ => 0

abbrev bufTy : (tb : Table) → Fin (tcTables nBuf tb) → BufTy
  | .hbm, ⟨0, _⟩ => ⟨S100000x4, .f32⟩
  | .hbm, ⟨1, _⟩ => ⟨S2x6400000, .i32⟩
  | .hbm, ⟨2, _⟩ => ⟨S4x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000, .i32⟩
  | .hbm, ⟨66, _⟩ => ⟨S1x6400000, .i32⟩
  | .hbm, ⟨67, _⟩ => ⟨S6400000, .i32⟩
  | .hbm, ⟨68, _⟩ => ⟨S6500000, .i32⟩
  | .hbm, ⟨69, _⟩ => ⟨S1x6400000, .i32⟩
  | .hbm, ⟨70, _⟩ => ⟨S6400000, .i32⟩
  | .hbm, ⟨71, _⟩ => ⟨S6500000, .i32⟩
  | .hbm, ⟨72, _⟩ => ⟨S_, .f32⟩
  | .hbm, ⟨73, _⟩ => ⟨S6500000, .f32⟩
  | .hbm, ⟨74, _⟩ => ⟨S_, .f32⟩
  | .hbm, ⟨75, _⟩ => ⟨S100000, .f32⟩
  | .hbm, ⟨76, _⟩ => ⟨S6500000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S6500000, .i32⟩
  | .hbm, ⟨88, _⟩ => ⟨S6500000, .i1⟩
  | .hbm, ⟨89, _⟩ => ⟨S_, .i32⟩
  | .hbm, ⟨90, _⟩ => ⟨S6500000, .i32⟩
  | .hbm, ⟨91, _⟩ => ⟨S6500000, .i32⟩
  | .hbm, ⟨92, _⟩ => ⟨S6500000, .i32⟩
  | .hbm, ⟨93, _⟩ => ⟨S6500000x1, .i32⟩
  | .hbm, ⟨94, _⟩ => ⟨S6500000, .f32⟩
  | .hbm, ⟨95, _⟩ => ⟨S_, .i32⟩
  | .hbm, ⟨96, _⟩ => ⟨S6500000, .i32⟩
  | .hbm, ⟨97, _⟩ => ⟨S6500000, .i1⟩
  | .hbm, ⟨98, _⟩ => ⟨S_, .i32⟩
  | .hbm, ⟨99, _⟩ => ⟨S6500000, .i32⟩
  | .hbm, ⟨100, _⟩ => ⟨S6500000, .i32⟩
  | .hbm, ⟨101, _⟩ => ⟨S6500000, .i32⟩
  | .hbm, ⟨102, _⟩ => ⟨S6500000x1, .i32⟩
  | .hbm, ⟨103, _⟩ => ⟨S6500000, .f32⟩
  | .hbm, ⟨104, _⟩ => ⟨S6500000, .f32⟩
  | .hbm, ⟨105, _⟩ => ⟨S100000x8, .f32⟩
  | .hbm, ⟨106, _⟩ => ⟨S_, .i32⟩
  | .hbm, ⟨107, _⟩ => ⟨S6500000, .i32⟩
  | .hbm, ⟨108, _⟩ => ⟨S6500000, .i1⟩
  | .hbm, ⟨109, _⟩ => ⟨S_, .i32⟩
  | .hbm, ⟨110, _⟩ => ⟨S6500000, .i32⟩
  | .hbm, ⟨111, _⟩ => ⟨S6500000, .i32⟩
  | .hbm, ⟨112, _⟩ => ⟨S6500000, .i32⟩
  | .hbm, ⟨113, _⟩ => ⟨S6500000x1, .i32⟩
  | .hbm, ⟨114, _⟩ => ⟨S6500000x8, .f32⟩
  | .hbm, ⟨115, _⟩ => ⟨S6500000x1, .f32⟩
  | .hbm, ⟨116, _⟩ => ⟨S6500000x8, .f32⟩
  | .hbm, ⟨117, _⟩ => ⟨S6500000x8, .f32⟩
  | .hbm, ⟨118, _⟩ => ⟨S_, .f32⟩
  | .hbm, ⟨119, _⟩ => ⟨S100000x8, .f32⟩
  | .hbm, ⟨120, _⟩ => ⟨S6500000x1, .i32⟩
  | .hbm, ⟨121, _⟩ => ⟨S100000x8, .f32⟩
  | .hbm, ⟨122, _⟩ => ⟨S1x8, .f32⟩
  | .hbm, ⟨123, _⟩ => ⟨S100000x8, .f32⟩
  | .local _ .vmem, ⟨0, _⟩ => ⟨S10000x4, .f32⟩
  | .local _ .vmem, ⟨1, _⟩ => ⟨S10000x4, .f32⟩
  | .local _ .vmem, ⟨2, _⟩ => ⟨S4x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S1x8, .f32⟩
  | .local _ .vmem, ⟨18, _⟩ => ⟨S10000x8, .f32⟩
  | .local _ .vmem, ⟨19, _⟩ => ⟨S10000x8, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_17 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x16_S4x16_0_0 : ∀ a, (![0, 0] : Fin 2 → Nat) a + S4x16.size a ≤ S4x16.size a
  h_S4x16 : 0 < S4x16.numel
  inb_S10000x16_S10000x16_0_0 : ∀ a, (![0, 0] : Fin 2 → Nat) a + S10000x16.size a ≤ S10000x16.size a
  h_S10000x16 : 0 < S10000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x4_S4x16_S10000x16_1_0_0_1_n_n_wf : DotDims.WF S10000x4 S4x16 S10000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x16_S16x8_S10000x8_1_0_0_1_n_n_wf : DotDims.WF S10000x16 S16x8 S10000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S100000x4.size a
  hwx0_0 : ∀ i : grid0.Coords, EltTy.bits .f32 = 32 ∨ (Rect.block (s := S100000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x16.size a ≤ S4x16.size a
  hwx0_1 : ∀ i : grid0.Coords, EltTy.bits .f32 = 32 ∨ (Rect.block (s := S4x16) S4x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S100000x8.size a
  hwx2_2 : ∀ i : grid2.Coords, EltTy.bits .f32 = 32 ∨ (Rect.block (s := S100000x8) S10000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S100000x8.size a
  hwx3_0 : ∀ i : grid3.Coords, EltTy.bits .f32 = 32 ∨ (Rect.block (s := S100000x8) S10000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x8.size a ≤ S100000x8.size a
  hwx3_2 : ∀ i : grid3.Coords, EltTy.bits .f32 = 32 ∨ (Rect.block (s := S100000x8) S10000x8.size (cc3_transform_2 i) (hinb3_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x4 : Shape := ⟨2, ![100000, 4]⟩
abbrev S2x6400000 : Shape := ⟨2, ![2, 6400000]⟩
abbrev S4x16 : Shape := ⟨2, ![4, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S6500000x16 : Shape := ⟨2, ![6500000, 16]⟩
abbrev S1x16 : Shape := ⟨2, ![1, 16]⟩
abbrev S100000x8 : Shape := ⟨2, ![100000, 8]⟩
abbrev S6500000x8 : Shape := ⟨2, ![6500000, 8]⟩
abbrev S1x8 : Shape := ⟨2, ![1, 8]⟩

abbrev nBuf : Space → Nat
  | .hbm => 129
  | .vmem => 0
  | .smem => 0
  | _ => 0

abbrev hbmTy0_0 (i : Nat) : BufTy := match i % 128 with
  | 0 => ⟨S100000x4, .f32⟩
  | 1 => ⟨S2x6400000, .i32⟩
  | 2 => ⟨S4x16, .f32⟩
  | 3 => ⟨S16, .f32⟩
  | 4 => ⟨S16x8, .f32⟩
  | 5 => ⟨S8, .f32⟩
  | 6 => ⟨S100000, .i32⟩
  | 7 => ⟨S1x6400000, .i32⟩
  | 8 => ⟨S6400000, .i32⟩
  | 9 => ⟨S6500000, .i32⟩
  | 10 => ⟨S1x6400000, .i32⟩
  | 11 => ⟨S6400000, .i32⟩
  | 12 => ⟨S6500000, .i32⟩
  | 13 => ⟨S_, .f32⟩
  | 14 => ⟨S6500000, .f32⟩
  | 15 => ⟨S_, .f32⟩
  | 16 => ⟨S100000, .f32⟩
  | 17 => ⟨S6500000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S6500000, .i32⟩
  | 29 => ⟨S6500000, .i1⟩
  | 30 => ⟨S_, .i32⟩
  | 31 => ⟨S6500000, .i32⟩
  | 32 => ⟨S6500000, .i32⟩
  | 33 => ⟨S6500000, .i32⟩
  | 34 => ⟨S6500000x1, .i32⟩
  | 35 => ⟨S6500000, .f32⟩
  | 36 => ⟨S_, .i32⟩
  | 37 => ⟨S6500000, .i32⟩
  | 38 => ⟨S6500000, .i1⟩
  | 39 => ⟨S_, .i32⟩
  | 40 => ⟨S6500000, .i32⟩
  | 41 => ⟨S6500000, .i32⟩
  | 42 => ⟨S6500000, .i32⟩
  | 43 => ⟨S6500000x1, .i32⟩
  | 44 => ⟨S6500000, .f32⟩
  | 45 => ⟨S6500000, .f32⟩
  | 46 => ⟨S100000x16, .f32⟩
  | 47 => ⟨S_, .i32⟩
  | 48 => ⟨S6500000, .i32⟩
  | 49 => ⟨S6500000, .i1⟩
  | 50 => ⟨S_, .i32⟩
  | 51 => ⟨S6500000, .i32⟩
  | 52 => ⟨S6500000, .i32⟩
  | 53 => ⟨S6500000, .i32⟩
  | 54 => ⟨S6500000x1, .i32⟩
  | 55 => ⟨S6500000x16, .f32⟩
  | 56 => ⟨S6500000x1, .f32⟩
  | 57 => ⟨S6500000x16, .f32⟩
  | 58 => ⟨S6500000x16, .f32⟩
  | 59 => ⟨S_, .f32⟩
  | 60 => ⟨S100000x16, .f32⟩
  | 61 => ⟨S6500000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S1x6400000, .i32⟩
  | 71 => ⟨S6400000, .i32⟩
  | 72 => ⟨S6500000, .i32⟩
  | 73 => ⟨S1x6400000, .i32⟩
  | 74 => ⟨S6400000, .i32⟩
  | 75 => ⟨S6500000, .i32⟩
  | 76 => ⟨S_, .f32⟩
  | 77 => ⟨S6500000, .f32⟩
  | 78 => ⟨S_, .f32⟩
  | 79 => ⟨S100000, .f32⟩
  | 80 => ⟨S6500000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S6500000, .i32⟩
  | 92 => ⟨S6500000, .i1⟩
  | 93 => ⟨S_, .i32⟩
  | 94 => ⟨S6500000, .i32⟩
  | 95 => ⟨S6500000, .i32⟩
  | 96 => ⟨S6500000, .i32⟩
  | 97 => ⟨S6500000x1, .i32⟩
  | 98 => ⟨S6500000, .f32⟩
  | 99 => ⟨S_, .i32⟩
  | 100 => ⟨S6500000, .i32⟩
  | 101 => ⟨S6500000, .i1⟩
  | 102 => ⟨S_, .i32⟩
  | 103 => ⟨S6500000, .i32⟩
  | 104 => ⟨S6500000, .i32⟩
  | 105 => ⟨S6500000, .i32⟩
  | 106 => ⟨S6500000x1, .i32⟩
  | 107 => ⟨S6500000, .f32⟩
  | 108 => ⟨S6500000, .f32⟩
  | 109 => ⟨S100000x8, .f32⟩
  | 110 => ⟨S_, .i32⟩
  | 111 => ⟨S6500000, .i32⟩
  | 112 => ⟨S6500000, .i1⟩
  | 113 => ⟨S_, .i32⟩
  | 114 => ⟨S6500000, .i32⟩
  | 115 => ⟨S6500000, .i32⟩
  | 116 => ⟨S6500000, .i32⟩
  | 117 => ⟨S6500000x1, .i32⟩
  | 118 => ⟨S6500000x8, .f32⟩
  | 119 => ⟨S6500000x1, .f32⟩
  | 120 => ⟨S6500000x8, .f32⟩
  | 121 => ⟨S6500000x8, .f32⟩
  | 122 => ⟨S_, .f32⟩
  | 123 => ⟨S100000x8, .f32⟩
  | 124 => ⟨S6500000x1, .i32⟩
  | 125 => ⟨S100000x8, .f32⟩
  | 126 => ⟨S1x8, .f32⟩
  | 127 => ⟨S100000x8, .f32⟩
  | _ => ⟨S100000x4, .f32⟩

abbrev hbmTy0_1 (i : Nat) : BufTy := match i % 128 with
  | 0 => ⟨S100000x8, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x8_0_1 : S6500000x1.BroadcastsInDim S6500000x8 (![0, 1] : Fin 2 → Fin S6500000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x4_S4x16_S100000x16_1_0_0_1_n_n_wf : DotDims.WF S100000x4 S4x16 S100000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x8_S100000x8_1_0_0_1_n_n_wf : DotDims.WF S100000x16 S16x8 S100000x8 [1] [0] [0] [1] [] []
  gather_S100000x8_S6500000x1_S6500000x8_1_0_n_n_0_1_18_wf : GatherDims.WF S100000x8 S6500000x1 S6500000x8 [1] [0] [] [0] [] 1 ![1, 8]
  scatter_S100000x8_S6500000x1_S6500000x8_1_0_0_1_wf : ScatterDims.WF S100000x8 S6500000x1 S6500000x8 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S6500000x1_S6500000x8_1_0_n_n_0_1_18 : GatherDims S100000x8 S6500000x1 S6500000x8 where
  offsetDims := [1]
  collapsedSliceDims := [0]
  operandBatchingDims := []
  startIndicesBatchingDims := []
  startIndexMap := [0]
  indexVectorDim := 1
  sliceSizes := ![1, 8]
  wf := gather_S100000x8_S6500000x1_S6500000x8_1_0_n_n_0_1_18_wf
def scatter_S100000x8_S6500000x1_S6500000x8_1_0_0_1 : ScatterDims S100000x8 S6500000x1 S6500000x8 where
  updateWindowDims := [1]
  insertedWindowDims := [0]
  scatterDimsToOperandDims := [0]
  indexVectorDim := 1
  wf := scatter_S100000x8_S6500000x1_S6500000x8_1_0_0_1_wf

class Facts : Prop extends Facts₀ where

variable [Facts]
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.RegionProdA.lean ====
/-
  The first region: the first layer's linear map, x · W1.

  At each of its ten grid points the region takes a block of 10000 rows of the [100000, 4] left matrix and the whole
  [4, 16] right matrix, rounds both to bf16 — the identity at the ideal values — and writes back their product into the
  all-zero accumulator.  The output blocks tile the array (row r lies in block r / 10000), so after the region the
  output array holds, at (r, c),
      Σ_{k < 4} a (r, k) · w (k, c),
  where a and w are the two input arrays as the region finds them.
-/
import proofs.«128691_j17205638988259_1_alg».proof.Proof.Gen.KernelIdeal.Frame
import proofs.«128691_j17205638988259_1_alg».proof.Proof.LibMatmulZero
import Idealize.ShloMosaic.Lib.Pipeline.Value
import Idealize.ShloMosaic.Lib.ValueIdx

set_option maxRecDepth 16384

noncomputable section

namespace Cert.KernelIdeal.ProdA

open Cert.KernelIdeal Cert.KernelIdeal.Gen
open Idealize.ShloMosaic Idealize.ShloMosaic.TcCoe Idealize.SL.Sem Idealize.ShloMosaic.ValueIdx

/-- The matrix product: entry (r, c) is the sum over k of a (r, k) · w (k, c). -/
def rowsTimes (a : FVec Ideal S100000x4 .f32) (w : FVec Ideal S4x16 .f32) : FVec Ideal S100000x16 .f32 :=
  fun i => ∑ k : Fin 4, a (ix2 (⟨(i 0).val, (i 0).isLt⟩ : Fin 100000) k) * w (ix2 k (⟨(i 1).val, (i 1).isLt⟩ : Fin 16))

/-- `rowsTimes` read at an index, with the entries it multiplies named. -/
theorem rowsTimes_at (a : FVec Ideal S100000x4 .f32) (w : FVec Ideal S4x16 .f32) (i : S100000x16.Idx)
    (f : Fin 4 → S100000x4.Idx) (g : Fin 4 → S4x16.Idx)
    (hf : ∀ k, f k = ix2 (⟨(i 0).val, (i 0).isLt⟩ : Fin 100000) k) (hg : ∀ k, g k = ix2 k (⟨(i 1).val, (i 1).isLt⟩ : Fin 16)) :
    ∑ k : Fin 4, a (f k) * w (g k) = rowsTimes a w i := by
  unfold rowsTimes
  exact Finset.sum_congr rfl fun k _ => by rw [hf k, hg k]

theorem offset_zero : (![0, 0] : Fin 2 → Nat) = fun _ => 0 := funext fun a => by fin_cases a <;> rfl

/-- The body's value at an entry of the block: the block's row times the right matrix's column. -/
theorem body_apply (x0 : FVec Ideal S10000x4 .f32) (x1 : FVec Ideal S4x16 .f32) (p : Fin 10000) (q : Fin 16) :
    k0_pay1 (F := Ideal) x0 x1 (ix2 p q) = ∑ k : Fin 4, x0 (ix2 p k) * x1 (ix2 k q) := by
  unfold k0_pay1
  exact Cert.LibMatmulZero.matmul_zero_ix2 dot_S10000x4_S4x16_S10000x16_1_0_0_1_n_n rfl rfl rfl rfl
    (fun i c => by
      unfold DotDims.lhsIdx
      rw [dif_neg (show ¬(0 : Fin S10000x4.rank) ∈ dot_S10000x4_S4x16_S10000x16_1_0_0_1_n_n.lhsBatch by decide),
        dif_pos (show (0 : Fin S10000x4.rank) ∈ dot_S10000x4_S4x16_S10000x16_1_0_0_1_n_n.lhsNonContracting by decide)]
      rfl)
    (fun i c => by
      unfold DotDims.rhsIdx
      rw [dif_neg (show ¬(1 : Fin S4x16.rank) ∈ dot_S10000x4_S4x16_S10000x16_1_0_0_1_n_n.rhsBatch by decide),
        dif_pos (show (1 : Fin S4x16.rank) ∈ dot_S10000x4_S4x16_S10000x16_1_0_0_1_n_n.rhsNonContracting by decide)]
      rfl)
    none (truncf .bf16 x0 bitsLt_bf16_f32) (truncf .bf16 x1 bitsLt_bf16_f32) p q

/-- The block index maps over the grid: the left block and the output block are block (t, 0), the right block (0, 0). -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0 :=
  (by decide +kernel : ∀ t : Fin grid0.N, _)

/-- Every block row 0 … 9 is some grid point's output block. -/
theorem index_onto : ∀ b : Fin 10, ∃ t : Fin cfg0.N, win0_2.index t = ![b.val, 0] :=
  (by decide +kernel : ∀ b : Fin 10, ∃ t : Fin grid0.N, win0_2.index t = ![b.val, 0])

variable (V : (c : Dev nD) → (b : Ref sig .tc) → Buf (Elt Ideal) ((c : Thread nD τ).loc b))

/-- What grid point `t` writes back is block `t` of the product of the two input arrays. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero offset_zero]
  simp only [View.ld_unit_zero (S := S10000x4) offset_zero, View.ld_unit_zero (S := S4x16) offset_zero]
  obtain ⟨e0, e1, e2, e3, e4⟩ := index_facts t
  funext j
  obtain ⟨p, q, rfl⟩ : ∃ (p : Fin 10000) (q : Fin 16), j = ix2 p q := ⟨j 0, j 1, eq_ix2 j⟩
  refine (body_apply (iblk0 V c 0 t) (iblk0 V c 1 t) p q).trans ?_
  have h0 : ∀ k : Fin 4, ((cfg0.win 0).blk t).view.emb (ix2 p k)
      = ix2 (⟨((((cfg0.win 2).blk t).view.emb (ix2 p q)) 0).val, ((((cfg0.win 2).blk t).view.emb (ix2 p q)) 0).isLt⟩ : Fin 100000) k := by
    intro k; funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 4 + 1 * k.val = k.val; omega
  have h1 : ∀ k : Fin 4, ((cfg0.win 1).blk t).view.emb (ix2 k q)
      = ix2 k (⟨((((cfg0.win 2).blk t).view.emb (ix2 p q)) 1).val, ((((cfg0.win 2).blk t).view.emb (ix2 p q)) 1).isLt⟩ : Fin 16) := by
    intro k; funext a; apply Fin.ext
    match a with
    | ⟨0, _⟩ => show win0_1.index t (0 : Fin 2) * 4 + 1 * k.val = k.val; omega
    | ⟨1, _⟩ => show win0_1.index t (1 : Fin 2) * 16 + 1 * q.val = win0_2.index t (1 : Fin 2) * 16 + 1 * q.val; omega
  exact rowsTimes_at (V c main_arg0) (V c main_arg2) (((cfg0.win 2).blk t).view.emb (ix2 p q))
    (fun k => ((cfg0.win 0).blk t).view.emb (ix2 p k)) (fun k => ((cfg0.win 1).blk t).view.emb (ix2 k q)) h0 h1

/-- An index of the output array lies in grid point `t`'s block iff each coordinate lies in the block's range. -/
theorem mem_block (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- The output blocks cover the array: row r lies in block r / 10000. -/
theorem covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The output array after the region: the product of the two input arrays. -/
theorem array_eq (c : Dev nD) : (dat0 V c).arrAt 2 cfg0.N = rowsTimes (V c main_arg0) (V c main_arg2) :=
  (dat0 V c).arrAt_eq_of_cover 2 _ (fun t _ => flushed_eq V c t) covered

end Cert.KernelIdeal.ProdA

end
-- ==== Proof.RegionProdB.lean ====
/-
  The third region: the second layer's linear map, h · W2.

  At each of its ten grid points the region takes a block of 10000 rows of the [100000, 16] left matrix and the whole
  [16, 8] right matrix, rounds both to bf16 — the identity at the ideal values — and writes back their product into the
  all-zero accumulator.  The output blocks tile the array (row r lies in block r / 10000), so after the region the
  output array holds, at (r, c),
      Σ_{k < 16} a (r, k) · w (k, c),
  where a and w are the two input arrays as the region finds them.
-/
import proofs.«128691_j17205638988259_1_alg».proof.Proof.Gen.KernelIdeal.Frame
import proofs.«128691_j17205638988259_1_alg».proof.Proof.LibMatmulZero
import Idealize.ShloMosaic.Lib.Pipeline.Value
import Idealize.ShloMosaic.Lib.ValueIdx

set_option maxRecDepth 16384

noncomputable section

namespace Cert.KernelIdeal.ProdB

open Cert.KernelIdeal Cert.KernelIdeal.Gen
open Idealize.ShloMosaic Idealize.ShloMosaic.TcCoe Idealize.SL.Sem Idealize.ShloMosaic.ValueIdx

/-- The matrix product: entry (r, c) is the sum over k of a (r, k) · w (k, c). -/
def rowsTimes (a : FVec Ideal S100000x16 .f32) (w : FVec Ideal S16x8 .f32) : FVec Ideal S100000x8 .f32 :=
  fun i => ∑ k : Fin 16, a (ix2 (⟨(i 0).val, (i 0).isLt⟩ : Fin 100000) k) * w (ix2 k (⟨(i 1).val, (i 1).isLt⟩ : Fin 8))

/-- `rowsTimes` read at an index, with the entries it multiplies named. -/
theorem rowsTimes_at (a : FVec Ideal S100000x16 .f32) (w : FVec Ideal S16x8 .f32) (i : S100000x8.Idx)
    (f : Fin 16 → S100000x16.Idx) (g : Fin 16 → S16x8.Idx)
    (hf : ∀ k, f k = ix2 (⟨(i 0).val, (i 0).isLt⟩ : Fin 100000) k) (hg : ∀ k, g k = ix2 k (⟨(i 1).val, (i 1).isLt⟩ : Fin 8)) :
    ∑ k : Fin 16, a (f k) * w (g k) = rowsTimes a w i := by
  unfold rowsTimes
  exact Finset.sum_congr rfl fun k _ => by rw [hf k, hg k]

theorem offset_zero : (![0, 0] : Fin 2 → Nat) = fun _ => 0 := funext fun a => by fin_cases a <;> rfl

/-- The body's value at an entry of the block: the block's row times the right matrix's column. -/
theorem body_apply (x0 : FVec Ideal S10000x16 .f32) (x1 : FVec Ideal S16x8 .f32) (p : Fin 10000) (q : Fin 8) :
    k2_pay1 (F := Ideal) x0 x1 (ix2 p q) = ∑ k : Fin 16, x0 (ix2 p k) * x1 (ix2 k q) := by
  unfold k2_pay1
  rw [shapeCast_self]
  exact Cert.LibMatmulZero.matmul_zero_ix2 dot_S10000x16_S16x8_S10000x8_1_0_0_1_n_n rfl rfl rfl rfl
    (fun i c => by
      unfold DotDims.lhsIdx
      rw [dif_neg (show ¬(0 : Fin S10000x16.rank) ∈ dot_S10000x16_S16x8_S10000x8_1_0_0_1_n_n.lhsBatch by decide),
        dif_pos (show (0 : Fin S10000x16.rank) ∈ dot_S10000x16_S16x8_S10000x8_1_0_0_1_n_n.lhsNonContracting by decide)]
      rfl)
    (fun i c => by
      unfold DotDims.rhsIdx
      rw [dif_neg (show ¬(1 : Fin S16x8.rank) ∈ dot_S10000x16_S16x8_S10000x8_1_0_0_1_n_n.rhsBatch by decide),
        dif_pos (show (1 : Fin S16x8.rank) ∈ dot_S10000x16_S16x8_S10000x8_1_0_0_1_n_n.rhsNonContracting by decide)]
      rfl)
    none (truncf .bf16 x0 bitsLt_bf16_f32) (truncf .bf16 x1 bitsLt_bf16_f32) p q

/-- The block index maps over the grid: the left block and the output block are block (t, 0), the right block (0, 0). -/
theorem index_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0 :=
  (by decide +kernel : ∀ t : Fin grid2.N, _)

/-- Every block row 0 … 9 is some grid point's output block. -/
theorem index_onto : ∀ b : Fin 10, ∃ t : Fin cfg2.N, win2_2.index t = ![b.val, 0] :=
  (by decide +kernel : ∀ b : Fin 10, ∃ t : Fin grid2.N, win2_2.index t = ![b.val, 0])

variable (V : (c : Dev nD) → (b : Ref sig .tc) → Buf (Elt Ideal) ((c : Thread nD τ).loc b))

/-- What grid point `t` writes back is block `t` of the product of the two input arrays. -/
theorem flushed_eq (c : Dev nD) (t : Fin cfg2.N) :
    (dat2 V c).flushed 2 t = ((cfg2.win 2).blk t).view.read (Elt Ideal) (rowsTimes (V c main_v45) (V c main_arg4)) := by
  show (cfg2.win 2).cut (grid2.coords t) ((dat2 V c).after 2 t) = _
  rw [after2_2]
  unfold out2_2
  rw [View.canon_unit_zero offset_zero]
  simp only [View.ld_unit_zero (S := S10000x16) offset_zero, View.ld_unit_zero (S := S16x8) offset_zero]
  obtain ⟨e0, e1, e2, e3, e4⟩ := index_facts t
  funext j
  obtain ⟨p, q, rfl⟩ : ∃ (p : Fin 10000) (q : Fin 8), j = ix2 p q := ⟨j 0, j 1, eq_ix2 j⟩
  refine (body_apply (iblk2 V c 0 t) (iblk2 V c 1 t) p q).trans ?_
  have h0 : ∀ k : Fin 16, ((cfg2.win 0).blk t).view.emb (ix2 p k)
      = ix2 (⟨((((cfg2.win 2).blk t).view.emb (ix2 p q)) 0).val, ((((cfg2.win 2).blk t).view.emb (ix2 p q)) 0).isLt⟩ : Fin 100000) k := by
    intro k; funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 16 + 1 * k.val = k.val; omega
  have h1 : ∀ k : Fin 16, ((cfg2.win 1).blk t).view.emb (ix2 k q)
      = ix2 k (⟨((((cfg2.win 2).blk t).view.emb (ix2 p q)) 1).val, ((((cfg2.win 2).blk t).view.emb (ix2 p q)) 1).isLt⟩ : Fin 8) := by
    intro k; funext a; apply Fin.ext
    match a with
    | ⟨0, _⟩ => show win2_1.index t (0 : Fin 2) * 16 + 1 * k.val = k.val; omega
    | ⟨1, _⟩ => show win2_1.index t (1 : Fin 2) * 8 + 1 * q.val = win2_2.index t (1 : Fin 2) * 8 + 1 * q.val; omega
  exact rowsTimes_at (V c main_v45) (V c main_arg4) (((cfg2.win 2).blk t).view.emb (ix2 p q))
    (fun k => ((cfg2.win 0).blk t).view.emb (ix2 p k)) (fun k => ((cfg2.win 1).blk t).view.emb (ix2 k q)) h0 h1

/-- An index of the output array lies in grid point `t`'s block iff each coordinate lies in the block's range. -/
theorem mem_block (t : Fin cfg2.N) (i : S100000x8.Idx) :
    i ∈ ((cfg2.win 2).blk t).view.set ↔ ∀ a : Fin 2, win2_2.index t a * S10000x8.size a ≤ (i a).val ∧ (i a).val < win2_2.index t a * S10000x8.size a + S10000x8.size a := by
  show i ∈ ((View.whole main_v76).slice (win2_2.rect t)).set ↔ _
  rw [View.set_slice_whole, Rect.mem_set_unit]
  exact Iff.rfl

/-- The output blocks cover the array: row r lies in block r / 10000. -/
theorem covered (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 8 ≤ (i 1).val ∧ (i 1).val < win2_2.index t (1 : Fin 2) * 8 + 8; omega

/-- The output array after the region: the product of the two input arrays. -/
theorem array_eq (c : Dev nD) : (dat2 V c).arrAt 2 cfg2.N = rowsTimes (V c main_v45) (V c main_arg4) :=
  (dat2 V c).arrAt_eq_of_cover 2 _ (fun t _ => flushed_eq V c t) covered

end Cert.KernelIdeal.ProdB

end
-- ==== Proof.RegionBiasA.lean ====
/-
  The second region: the first layer's bias and its rectifier.

  At each of its ten grid points the region takes a block of 10000 rows of the aggregated [100000, 16] matrix and the
  single [1, 16] bias row, adds the bias row to each row of the block and takes the maximum with the zero splat.  The
  output blocks tile the array (row r lies in block r / 10000), so after the region the output array holds, at (r, c),
      max (a (r, c) + b (0, c)) 0,
  where a and b are the two input arrays as the region finds them and 0 is the f32 word zero.
-/
import proofs.«128691_j17205638988259_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasA

open Cert.KernelIdeal Cert.KernelIdeal.Gen
open Idealize.ShloMosaic Idealize.ShloMosaic.TcCoe Idealize.SL.Sem Idealize.ShloMosaic.ValueIdx

/-- Every row of `a` plus the one row of `b`, rectified against the zero word. -/
def rowsPlusRelu (a : FVec Ideal S100000x16 .f32) (b : FVec Ideal S1x16 .f32) : FVec Ideal S100000x16 .f32 :=
  fun i => max (a i + b (ix2 (0 : Fin 1) (⟨(i 1).val, (i 1).isLt⟩ : Fin 16))) (Scalar.ofBits (F := Ideal) .f32 0x00000000#32)

/-- `rowsPlusRelu` read at an index, with the two entries it adds named. -/
theorem rowsPlusRelu_at (a : FVec Ideal S100000x16 .f32) (b : FVec Ideal S1x16 .f32) (i i' : S100000x16.Idx) (k : S1x16.Idx)
    (hi : i' = i) (hk : k = ix2 (0 : Fin 1) (⟨(i 1).val, (i 1).isLt⟩ : Fin 16)) :
    max (a i' + b k) (Scalar.ofBits (F := Ideal) .f32 0x00000000#32) = rowsPlusRelu a b i := by
  subst hi hk; rfl

theorem offset_zero : (![0, 0] : Fin 2 → Nat) = fun _ => 0 := funext fun a => by fin_cases a <;> rfl

/-- The body's value at an entry of the block: the block's entry plus the bias row's entry in that column, rectified. -/
theorem body_apply (x0 : FVec Ideal S10000x16 .f32) (x1 : FVec Ideal S1x16 .f32) (p : Fin 10000) (q : Fin 16) :
    k1_pay1 (F := Ideal) x0 x1 (ix2 p q)
      = max (x0 (ix2 p q) + x1 (ix2 (0 : Fin 1) q)) (Scalar.ofBits (F := Ideal) .f32 0x00000000#32) := by
  unfold k1_pay1
  rw [maximumf_apply, broadcast_apply, addf_apply, shapeCast_self, shapeCast_self, broadcastTo_1b_ab_apply]

/-- The block index maps over the grid: the matrix block and the output block are block (t, 0), the bias block (0, 0). -/
theorem index_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0 :=
  (by decide +kernel : ∀ t : Fin grid1.N, _)

/-- Every block row 0 … 9 is some grid point's output block. -/
theorem index_onto : ∀ b : Fin 10, ∃ t : Fin cfg1.N, win1_2.index t = ![b.val, 0] :=
  (by decide +kernel : ∀ b : Fin 10, ∃ t : Fin grid1.N, win1_2.index t = ![b.val, 0])

variable (V : (c : Dev nD) → (b : Ref sig .tc) → Buf (Elt Ideal) ((c : Thread nD τ).loc b))

/-- What grid point `t` writes back is block `t` of `rowsPlusRelu` of the two input arrays. -/
theorem flushed_eq (c : Dev nD) (t : Fin cfg1.N) :
    (dat1 V c).flushed 2 t = ((cfg1.win 2).blk t).view.read (Elt Ideal) (rowsPlusRelu (V c main_v43) (V c main_v44)) := by
  show (cfg1.win 2).cut (grid1.coords t) ((dat1 V c).after 2 t) = _
  rw [after1_2]
  unfold out1_2
  rw [View.canon_unit_zero offset_zero]
  simp only [View.ld_unit_zero (S := S10000x16) offset_zero, View.ld_unit_zero (S := S1x16) offset_zero]
  obtain ⟨e0, e1, e2, e3, e4⟩ := index_facts t
  funext j
  obtain ⟨p, q, rfl⟩ : ∃ (p : Fin 10000) (q : Fin 16), j = ix2 p q := ⟨j 0, j 1, eq_ix2 j⟩
  refine (body_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 16 + 1 * q.val = win1_2.index t (1 : Fin 2) * 16 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 16) := by
    funext a; apply Fin.ext
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  exact rowsPlusRelu_at (V c main_v43) (V c main_v44) (((cfg1.win 2).blk t).view.emb (ix2 p q))
    (((cfg1.win 0).blk t).view.emb (ix2 p q)) (((cfg1.win 1).blk t).view.emb (ix2 (0 : Fin 1) q)) h0 h1

/-- An index of the output array lies in grid point `t`'s block iff each coordinate lies in the block's range. -/
theorem mem_block (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- The output blocks cover the array: row r lies in block r / 10000. -/
theorem covered (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- The output array after the region: every row of the matrix plus the bias row, rectified. -/
theorem array_eq (c : Dev nD) : (dat1 V c).arrAt 2 cfg1.N = rowsPlusRelu (V c main_v43) (V c main_v44) :=
  (dat1 V c).arrAt_eq_of_cover 2 _ (fun t _ => flushed_eq V c t) covered

end Cert.KernelIdeal.BiasA

end
-- ==== Proof.RegionBiasB.lean ====
/-
  The fourth region: the second layer's bias.

  The region adds one row to every row of a matrix: at each of its ten grid points it takes a block of 10000 rows of the
  aggregated [100000, 8] matrix and the single [1, 8] bias row, and writes back the block with the bias row added to each
  of its rows.  The output blocks tile the array (row r lies in block r / 10000), so after the region the output array
  holds, at (r, c),   a (r, c) + b (0, c),   where a and b are the two input arrays as the region finds them.
-/
import proofs.«128691_j17205638988259_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.BiasB

open Cert.KernelIdeal Cert.KernelIdeal.Gen
open Idealize.ShloMosaic Idealize.ShloMosaic.TcCoe Idealize.SL.Sem Idealize.ShloMosaic.ValueIdx

/-- Every row of `a` plus the one row of `b`. -/
def rowsPlus (a : FVec Ideal S100000x8 .f32) (b : FVec Ideal S1x8 .f32) : FVec Ideal S100000x8 .f32 :=
  fun i => a i + b (ix2 (0 : Fin 1) (⟨(i 1).val, (i 1).isLt⟩ : Fin 8))

/-- `rowsPlus` read at an index, with the two entries it adds named. -/
theorem rowsPlus_at (a : FVec Ideal S100000x8 .f32) (b : FVec Ideal S1x8 .f32) (i i' : S100000x8.Idx) (k : S1x8.Idx)
    (hi : i' = i) (hk : k = ix2 (0 : Fin 1) (⟨(i 1).val, (i 1).isLt⟩ : Fin 8)) : a i' + b k = rowsPlus a b i := by
  subst hi hk; rfl

theorem offset_zero : (![0, 0] : Fin 2 → Nat) = fun _ => 0 := funext fun a => by fin_cases a <;> rfl

/-- The body's value at an entry of the block: the block's entry plus the bias row's entry in that column. -/
theorem body_apply (x0 : FVec Ideal S10000x8 .f32) (x1 : FVec Ideal S1x8 .f32) (p : Fin 10000) (q : Fin 8) :
    k3_pay1 (F := Ideal) x0 x1 (ix2 p q) = x0 (ix2 p q) + x1 (ix2 (0 : Fin 1) q) := by
  unfold k3_pay1
  rw [addf_apply, shapeCast_self, shapeCast_self, broadcastTo_1b_ab_apply]

/-- The block index maps over the grid: the matrix block and the output block are block (t, 0), the bias block (0, 0). -/
theorem index_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0 :=
  (by decide +kernel : ∀ t : Fin grid3.N, _)

/-- Every block row 0 … 9 is some grid point's output block. -/
theorem index_onto : ∀ b : Fin 10, ∃ t : Fin cfg3.N, win3_2.index t = ![b.val, 0] :=
  (by decide +kernel : ∀ b : Fin 10, ∃ t : Fin grid3.N, win3_2.index t = ![b.val, 0])

variable (V : (c : Dev nD) → (b : Ref sig .tc) → Buf (Elt Ideal) ((c : Thread nD τ).loc b))

/-- What grid point `t` writes back is block `t` of `rowsPlus` of the two input arrays. -/
theorem flushed_eq (c : Dev nD) (t : Fin cfg3.N) :
    (dat3 V c).flushed 2 t = ((cfg3.win 2).blk t).view.read (Elt Ideal) (rowsPlus (V c main_v89) (V c main_v90)) := by
  show (cfg3.win 2).cut (grid3.coords t) ((dat3 V c).after 2 t) = _
  rw [after3_2]
  unfold out3_2
  rw [View.canon_unit_zero offset_zero]
  simp only [View.ld_unit_zero (S := S10000x8) offset_zero, View.ld_unit_zero (S := S1x8) offset_zero]
  obtain ⟨e0, e1, e2, e3, e4⟩ := index_facts t
  funext j
  obtain ⟨p, q, rfl⟩ : ∃ (p : Fin 10000) (q : Fin 8), j = ix2 p q := ⟨j 0, j 1, eq_ix2 j⟩
  refine (body_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 8 + 1 * q.val = win3_2.index t (1 : Fin 2) * 8 + 1 * q.val; omega
  have h1 : ((cfg3.win 1).blk t).view.emb (ix2 (0 : Fin 1) q)
      = ix2 (0 : Fin 1) (⟨((((cfg3.win 2).blk t).view.emb (ix2 p q)) 1).val, ((((cfg3.win 2).blk t).view.emb (ix2 p q)) 1).isLt⟩ : Fin 8) := by
    funext a; apply Fin.ext
    match a with
    | ⟨0, _⟩ => show win3_1.index t (0 : Fin 2) * 1 + 1 * 0 = 0; omega
    | ⟨1, _⟩ => show win3_1.index t (1 : Fin 2) * 8 + 1 * q.val = win3_2.index t (1 : Fin 2) * 8 + 1 * q.val; omega
  exact rowsPlus_at (V c main_v89) (V c main_v90) (((cfg3.win 2).blk t).view.emb (ix2 p q))
    (((cfg3.win 0).blk t).view.emb (ix2 p q)) (((cfg3.win 1).blk t).view.emb (ix2 (0 : Fin 1) q)) h0 h1

/-- An index of the output array lies in grid point `t`'s block iff each coordinate lies in the block's range. -/
theorem mem_block (t : Fin cfg3.N) (i : S100000x8.Idx) :
    i ∈ ((cfg3.win 2).blk t).view.set ↔ ∀ a : Fin 2, win3_2.index t a * S10000x8.size a ≤ (i a).val ∧ (i a).val < win3_2.index t a * S10000x8.size a + S10000x8.size a := by
  show i ∈ ((View.whole main_v91).slice (win3_2.rect t)).set ↔ _
  rw [View.set_slice_whole, Rect.mem_set_unit]
  exact Iff.rfl

/-- The output blocks cover the array: row r lies in block r / 10000. -/
theorem covered (i : S100000x8.Idx) : ∃ t : Fin cfg3.N, (cfg3.win 2).flush t = true ∧ i ∈ ((cfg3.win 2).blk t).view.set := by
  have hi0 : (i 0).val < 100000 := (i 0).isLt
  have hi1 : (i 1).val < 8 := (i 1).isLt
  obtain ⟨t, ht⟩ := index_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 8 ≤ (i 1).val ∧ (i 1).val < win3_2.index t (1 : Fin 2) * 8 + 8; omega

/-- The output array after the region: every row of the matrix plus the bias row. -/
theorem array_eq (c : Dev nD) : (dat3 V c).arrAt 2 cfg3.N = rowsPlus (V c main_v89) (V c main_v90) :=
  (dat3 V c).arrAt_eq_of_cover 2 _ (fun t _ => flushed_eq V c t) covered

end Cert.KernelIdeal.BiasB

end
-- ==== Proof.Joins.lean ====
/-
  The two programs' pieces that differ, joined at the ideal values.

  Where the reference has a host operation the kernel program has a region; the four regions' arrays, as whole-array
  functions of their inputs, are the reference's operations of the same inputs:
    * the product Σ_k a (r, k) · w (k, c) is the host's `dot_general` contracting the left operand's axis 1 with the
      right operand's axis 0 — the same sum, each read at the same entries;
    * a bias row reshaped [n] → [1, n] and added to every row is the bias broadcast [n] → [1, n] → [R, n] and added:
      both read the bias at the column;
    * the maximum with the zero splat is the reference's maximum with the broadcast zero constant: the same word.
  No law of arithmetic is used: each pair is the same expression entry by entry.
-/
import proofs.«128691_j17205638988259_1_alg».proof.Proof.RefRead
import proofs.«128691_j17205638988259_1_alg».proof.Proof.RegionProdA
import proofs.«128691_j17205638988259_1_alg».proof.Proof.RegionProdB
import proofs.«128691_j17205638988259_1_alg».proof.Proof.RegionBiasA
import proofs.«128691_j17205638988259_1_alg».proof.Proof.RegionBiasB
import Idealize.ShloMosaic.Lib.ValueLayout

noncomputable section

namespace Cert.Joins

open Idealize.ShloMosaic Idealize.ShloMosaic.ValueIdx
open Cert.ReferenceIdeal.ReadP

/-- The first layer's product is the reference's `dot_general` of the same two arrays. -/
theorem prodA_eq (x0 : FVec Ideal Cert.KernelIdeal.S100000x4 .f32) (x2 : FVec Ideal Cert.KernelIdeal.S4x16 .f32) :
    Cert.KernelIdeal.ProdA.rowsTimes x0 x2 = val_main_v30 (F := Ideal) x0 x2 := by
  funext i
  rw [val_main_v30_apply]
  unfold Cert.KernelIdeal.ProdA.rowsTimes
  refine Finset.sum_congr rfl fun k _ => ?_
  have el : lidx_main_v30 i k = ix2 (⟨(i 0).val, (i 0).isLt⟩ : Fin 100000) k :=
    funext fun a => Fin.ext (by match a with | ⟨0, _⟩ => rfl | ⟨1, _⟩ => rfl)
  have er : ridx_main_v30 i k = ix2 k (⟨(i 1).val, (i 1).isLt⟩ : Fin 16) :=
    funext fun a => Fin.ext (by match a with | ⟨0, _⟩ => rfl | ⟨1, _⟩ => rfl)
  rw [el, er]

/-- The second layer's product of the first layer's output is the reference's second `dot_general`. -/
theorem prodB_eq (x0 : FVec Ideal Cert.KernelIdeal.S100000x4 .f32) (x1 : IVec Cert.KernelIdeal.S2x6400000 32)
    (x2 : FVec Ideal Cert.KernelIdeal.S4x16 .f32) (x3 : FVec Ideal Cert.KernelIdeal.S16 .f32) (x4 : FVec Ideal Cert.KernelIdeal.S16x8 .f32) :
    Cert.KernelIdeal.ProdB.rowsTimes (val_main_v47 (F := Ideal) x0 x1 x2 x3) x4 = val_main_v78 (F := Ideal) x0 x1 x2 x3 x4 := by
  funext i
  rw [val_main_v78_apply]
  unfold Cert.KernelIdeal.ProdB.rowsTimes
  refine Finset.sum_congr rfl fun k _ => ?_
  have el : lidx_main_v78 i k = ix2 (⟨(i 0).val, (i 0).isLt⟩ : Fin 100000) k :=
    funext fun a => Fin.ext (by match a with | ⟨0, _⟩ => rfl | ⟨1, _⟩ => rfl)
  have er : ridx_main_v78 i k = ix2 k (⟨(i 1).val, (i 1).isLt⟩ : Fin 8) :=
    funext fun a => Fin.ext (by match a with | ⟨0, _⟩ => rfl | ⟨1, _⟩ => rfl)
  rw [el, er]

/-- The first layer's bias and rectifier: the reshaped bias row added to every row, against the zero splat, is the
    reference's broadcast bias added, against its broadcast zero. -/
theorem biasA_eq (a : FVec Ideal Cert.KernelIdeal.S100000x16 .f32) (x3 : FVec Ideal Cert.KernelIdeal.S16 .f32)
    (h : Cert.KernelIdeal.S16.ShapeCasts Cert.KernelIdeal.S1x16) :
    Cert.KernelIdeal.BiasA.rowsPlusRelu a (shapeCast Cert.KernelIdeal.S1x16 x3 h)
      = maximumf (addf a (val_main_v45 (F := Ideal) x3)) (val_main_call1_v0 (F := Ideal)) := by
  funext i
  rw [maximumf_apply, addf_apply, val_main_v45_apply, val_main_v44_apply, val_main_call1_v0_apply, val_main_call1_cst_apply]
  unfold Cert.KernelIdeal.BiasA.rowsPlusRelu
  rw [shapeCast_a_1a_apply]
  have e : idx_main_v44 (idx_main_v45 i) = ix1 (⟨(i 1).val, (i 1).isLt⟩ : Fin 16) :=
    funext fun a => Fin.ext (by match a with | ⟨0, _⟩ => rfl)
  rw [e]

/-- The second layer's bias: the reshaped bias row added to every row is the reference's broadcast bias added. -/
theorem biasB_eq (a : FVec Ideal Cert.KernelIdeal.S100000x8 .f32) (x5 : FVec Ideal Cert.KernelIdeal.S8 .f32)
    (h : Cert.KernelIdeal.S8.ShapeCasts Cert.KernelIdeal.S1x8) :
    Cert.KernelIdeal.BiasB.rowsPlus a (shapeCast Cert.KernelIdeal.S1x8 x5 h)
      = addf a (val_main_v93 (F := Ideal) x5) := by
  funext i
  rw [addf_apply, val_main_v93_apply, val_main_v92_apply]
  unfold Cert.KernelIdeal.BiasB.rowsPlus
  rw [shapeCast_a_1a_apply]
  have e : idx_main_v92 (idx_main_v93 i) = ix1 (⟨(i 1).val, (i 1).isLt⟩ : Fin 8) :=
    funext fun a => Fin.ext (by match a with | ⟨0, _⟩ => rfl)
  rw [e]

end Cert.Joins

end
-- ==== Proof.EdgeWeights.lean ====
/-
  The weight of every edge, at any float instance.

  Both layers weigh an edge by the product of the inverse square roots of the degrees of its two ends; the degrees are a
  scatter-add of ones at the edge targets (self-loops included), and a node of degree zero gets weight zero through a
  guarded select.  The kernel program computes the weights on the host, in the stretches before its first and before its
  third region, by the same operations of the edge array as the reference.  Nothing in these operations depends on
  what a float is, so the two facts are stated for an arbitrary float instance: the buffer of weights at the boundary
  before the region is the reference's stage of the same name of the edge array.
-/
import proofs.«128691_j17205638988259_1_alg».proof.Proof.Gen.KernelIdeal.Frame
import proofs.«128691_j17205638988259_1_alg».proof.Proof.RefRead
import Idealize.ShloMosaic.Lib.StableHlo.Run

set_option maxRecDepth 16384

noncomputable section

namespace Cert.KernelIdeal.EdgeWeights

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]
variable (m : (ℓ : Loc nD τ sig) → Buf (Elt F) ℓ) (ρ : Dev nD → PrngReg)

/-- Before the first region: the weights are the reference's, as operations of the launched edge array. -/
theorem first (c : Dev nD) :
    W3 m ρ c (Proc.devRef .tc main_v29) = val_main_v29 (F := F) (m ((c.tc : Thread nD τ).loc main_arg1)) := by
  show StableHlo.after hostOps0_2 (StableHlo.after hostOps0_1 (StableHlo.after hostOps0 (W0 m ρ c))) (Proc.devRef .tc main_v29) = _
  simp only [hostOps0_2, hostOps0_1, hostOps0]
  after_results_simp
  rfl

/-! Before the third region the same operations run again, from whatever the buffers hold when the stretch is entered
    (`V`); they read the edge array and nothing else. -/

/-- The edge sources with the self-loops appended. -/
theorem second_sources (V : Valuation τ sig (Elt F)) :
    StableHlo.after hostOps2_2 (StableHlo.after hostOps2_1 (StableHlo.after hostOps2 V)) (Proc.devRef .tc main_v49)
      = val_main_v51 (F := F) (V (Proc.devRef .tc main_arg1)) := by
  simp only [hostOps2_2, hostOps2_1, hostOps2]
  after_results_simp
  rfl

/-- The edge targets with the self-loops appended. -/
theorem second_targets (V : Valuation τ sig (Elt F)) :
    StableHlo.after hostOps2_2 (StableHlo.after hostOps2_1 (StableHlo.after hostOps2 V)) (Proc.devRef .tc main_v52)
      = val_main_v54 (F := F) (V (Proc.devRef .tc main_arg1)) := by
  simp only [hostOps2_2, hostOps2_1, hostOps2]
  after_results_simp
  rfl

/-- The weight of every edge. -/
theorem second_weights (V : Valuation τ sig (Elt F)) :
    StableHlo.after hostOps2_2 (StableHlo.after hostOps2_1 (StableHlo.after hostOps2 V)) (Proc.devRef .tc main_v75)
      = val_main_v77 (F := F) (V (Proc.devRef .tc main_arg1)) := by
  simp only [hostOps2_2, hostOps2_1, hostOps2]
  after_results_simp
  rfl

end Cert.KernelIdeal.EdgeWeights

end
-- ==== Proof.WalkA.lean ====
/-
  The kernel program's buffers, boundary by boundary: the first layer.

  The run's boundaries (the contents of the TensorCore's buffers after each stretch of host operations and after each
  region) are a fold from the launch memory.  Here each buffer a later step reads is read off that fold and named by
  the reference's operation that computes the same value of the same arguments:
    * after the host operations before the first region, the edge sources and targets with their self-loops, and the
      normalisation weight of every edge, are the reference's, being the same operations of the edge array;
    * the first region's array is the product x · W1, the reference's `dot_general`;
    * after the host operations between the first two regions, the aggregated messages are the reference's
      scatter-add of the gathered, weighted rows of that product, and the bias is the bias row reshaped;
    * the second region's array is the rectified sum, the reference's `relu (agg + b1)`.
  Every step is either "this stretch does not write that buffer", "this region does not own that buffer", a region's
  array as a whole-array function of its inputs, or the operations of one stretch composed.
-/
import proofs.«128691_j17205638988259_1_alg».proof.Proof.Gen.KernelIdeal.Frame
import proofs.«128691_j17205638988259_1_alg».proof.Proof.Joins
import proofs.«128691_j17205638988259_1_alg».proof.Proof.EdgeWeights
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-- The six argument arrays as launched. -/
abbrev X0 (c : Dev nD) := m ((c.tc : Thread nD τ).loc main_arg0)
abbrev X1 (c : Dev nD) := m ((c.tc : Thread nD τ).loc main_arg1)
abbrev X2 (c : Dev nD) := m ((c.tc : Thread nD τ).loc main_arg2)
abbrev X3 (c : Dev nD) := m ((c.tc : Thread nD τ).loc main_arg3)
abbrev X4 (c : Dev nD) := m ((c.tc : Thread nD τ).loc main_arg4)
abbrev X5 (c : Dev nD) := m ((c.tc : Thread nD τ).loc main_arg5)

/-! ## Before the first region: the host operations on the edge array -/

/-- The edge sources with the self-loops appended. -/
theorem W3_v3 (c : Dev nD) : W3 m ρ c (Proc.devRef .tc main_v3) = val_main_v3 (F := Ideal) (X1 m c) := by
  show StableHlo.after hostOps0_2 (StableHlo.after hostOps0_1 (StableHlo.after hostOps0 (W0 m ρ c))) (Proc.devRef .tc main_v3) = _
  simp only [hostOps0_2, hostOps0_1, hostOps0]
  after_results_simp
  rfl

/-- The edge targets with the self-loops appended. -/
theorem W3_v6 (c : Dev nD) : W3 m ρ c (Proc.devRef .tc main_v6) = val_main_v6 (F := Ideal) (X1 m c) := by
  show StableHlo.after hostOps0_2 (StableHlo.after hostOps0_1 (StableHlo.after hostOps0 (W0 m ρ c))) (Proc.devRef .tc main_v6) = _
  simp only [hostOps0_2, hostOps0_1, hostOps0]
  after_results_simp
  rfl

/-- The weight of every edge: the product of the inverse square roots of the degrees of its two ends. -/
theorem W3_v29 (c : Dev nD) : W3 m ρ c (Proc.devRef .tc main_v29) = val_main_v29 (F := Ideal) (X1 m c) :=
  EdgeWeights.first m ρ c

/-- No host operation writes an argument array. -/
theorem W3_arg0 (c : Dev nD) : W3 m ρ c (Proc.devRef .tc main_arg0) = X0 m c := by
  show StableHlo.after hostOps0_2 (StableHlo.after hostOps0_1 (StableHlo.after hostOps0 (W0 m ρ c))) (Proc.devRef .tc main_arg0) = _
  simp only [hostOps0_2, hostOps0_1, hostOps0]
  after_results_simp
theorem W3_arg1 (c : Dev nD) : W3 m ρ c (Proc.devRef .tc main_arg1) = X1 m c := by
  show StableHlo.after hostOps0_2 (StableHlo.after hostOps0_1 (StableHlo.after hostOps0 (W0 m ρ c))) (Proc.devRef .tc main_arg1) = _
  simp only [hostOps0_2, hostOps0_1, hostOps0]
  after_results_simp
theorem W3_arg2 (c : Dev nD) : W3 m ρ c (Proc.devRef .tc main_arg2) = X2 m c := by
  show StableHlo.after hostOps0_2 (StableHlo.after hostOps0_1 (StableHlo.after hostOps0 (W0 m ρ c))) (Proc.devRef .tc main_arg2) = _
  simp only [hostOps0_2, hostOps0_1, hostOps0]
  after_results_simp
theorem W3_arg3 (c : Dev nD) : W3 m ρ c (Proc.devRef .tc main_arg3) = X3 m c := by
  show StableHlo.after hostOps0_2 (StableHlo.after hostOps0_1 (StableHlo.after hostOps0 (W0 m ρ c))) (Proc.devRef .tc main_arg3) = _
  simp only [hostOps0_2, hostOps0_1, hostOps0]
  after_results_simp
theorem W3_arg4 (c : Dev nD) : W3 m ρ c (Proc.devRef .tc main_arg4) = X4 m c := by
  show StableHlo.after hostOps0_2 (StableHlo.after hostOps0_1 (StableHlo.after hostOps0 (W0 m ρ c))) (Proc.devRef .tc main_arg4) = _
  simp only [hostOps0_2, hostOps0_1, hostOps0]
  after_results_simp
theorem W3_arg5 (c : Dev nD) : W3 m ρ c (Proc.devRef .tc main_arg5) = X5 m c := by
  show StableHlo.after hostOps0_2 (StableHlo.after hostOps0_1 (StableHlo.after hostOps0 (W0 m ρ c))) (Proc.devRef .tc main_arg5) = _
  simp only [hostOps0_2, hostOps0_1, hostOps0]
  after_results_simp

/-! ## After the first region -/

/-- The first region's array: x · W1, the reference's `dot_general`. -/
theorem W4_v30 (c : Dev nD) : W4 m ρ c (Proc.devRef .tc main_v30) = val_main_v30 (F := Ideal) (X0 m c) (X2 m c) :=
  (W4_arr m ρ c 2).trans ((ProdA.array_eq (V3 m ρ) c).trans
    ((congr (congrArg ProdA.rowsTimes (W3_arg0 m ρ c)) (W3_arg2 m ρ c)).trans (Cert.Joins.prodA_eq _ _)))

/-- The region owns none of these buffers: they are as it found them. -/
theorem W4_v3 (c : Dev nD) : W4 m ρ c (Proc.devRef .tc main_v3) = val_main_v3 (F := Ideal) (X1 m c) :=
  (W4_of_ne m ρ c main_v3 (by decide)).trans (W3_v3 m ρ c)
theorem W4_v6 (c : Dev nD) : W4 m ρ c (Proc.devRef .tc main_v6) = val_main_v6 (F := Ideal) (X1 m c) :=
  (W4_of_ne m ρ c main_v6 (by decide)).trans (W3_v6 m ρ c)
theorem W4_v29 (c : Dev nD) : W4 m ρ c (Proc.devRef .tc main_v29) = val_main_v29 (F := Ideal) (X1 m c) :=
  (W4_of_ne m ρ c main_v29 (by decide)).trans (W3_v29 m ρ c)
theorem W4_arg1 (c : Dev nD) : W4 m ρ c (Proc.devRef .tc main_arg1) = X1 m c :=
  (W4_of_ne m ρ c main_arg1 (by decide)).trans (W3_arg1 m ρ c)
theorem W4_arg3 (c : Dev nD) : W4 m ρ c (Proc.devRef .tc main_arg3) = X3 m c :=
  (W4_of_ne m ρ c main_arg3 (by decide)).trans (W3_arg3 m ρ c)
theorem W4_arg4 (c : Dev nD) : W4 m ρ c (Proc.devRef .tc main_arg4) = X4 m c :=
  (W4_of_ne m ρ c main_arg4 (by decide)).trans (W3_arg4 m ρ c)
theorem W4_arg5 (c : Dev nD) : W4 m ρ c (Proc.devRef .tc main_arg5) = X5 m c :=
  (W4_of_ne m ρ c main_arg5 (by decide)).trans (W3_arg5 m ρ c)

/-! ## Between the first two regions: gather, weigh, scatter-add; the bias reshaped -/

/-- The aggregated messages of the first layer. -/
theorem W5_v43 (c : Dev nD) : W5 m ρ c (Proc.devRef .tc main_v43) = val_main_v43 (F := Ideal) (X0 m c) (X1 m c) (X2 m c) := by
  show StableHlo.after hostOps1 (W4 m ρ c) (Proc.devRef .tc main_v43) = _
  simp only [hostOps1]
  after_results_simp
  rw [W4_v3 m ρ c, W4_v6 m ρ c, W4_v29 m ρ c, W4_v30 m ρ c]
  rfl

/-- The first bias as one row. -/
theorem W5_v44 (c : Dev nD) : W5 m ρ c (Proc.devRef .tc main_v44) = shapeCast S1x16 (X3 m c) shapeCasts_S16_S1x16 := by
  show StableHlo.after hostOps1 (W4 m ρ c) (Proc.devRef .tc main_v44) = _
  simp only [hostOps1]
  after_results_simp
  rw [W4_arg3 m ρ c]
  rfl

theorem W5_arg1 (c : Dev nD) : W5 m ρ c (Proc.devRef .tc main_arg1) = X1 m c := by
  show StableHlo.after hostOps1 (W4 m ρ c) (Proc.devRef .tc main_arg1) = _
  simp only [hostOps1]
  after_results_simp
  exact W4_arg1 m ρ c
theorem W5_arg4 (c : Dev nD) : W5 m ρ c (Proc.devRef .tc main_arg4) = X4 m c := by
  show StableHlo.after hostOps1 (W4 m ρ c) (Proc.devRef .tc main_arg4) = _
  simp only [hostOps1]
  after_results_simp
  exact W4_arg4 m ρ c
theorem W5_arg5 (c : Dev nD) : W5 m ρ c (Proc.devRef .tc main_arg5) = X5 m c := by
  show StableHlo.after hostOps1 (W4 m ρ c) (Proc.devRef .tc main_arg5) = _
  simp only [hostOps1]
  after_results_simp
  exact W4_arg5 m ρ c

/-! ## After the second region -/

/-- The second region's array: the rectified first layer, the reference's `relu (agg + b1)`. -/
theorem W6_v45 (c : Dev nD) : W6 m ρ c (Proc.devRef .tc main_v45) = val_main_v47 (F := Ideal) (X0 m c) (X1 m c) (X2 m c) (X3 m c) :=
  (W6_arr m ρ c 2).trans ((BiasA.array_eq (V5 m ρ) c).trans
    ((congr (congrArg BiasA.rowsPlusRelu (W5_v43 m ρ c)) (W5_v44 m ρ c)).trans ((Cert.Joins.biasA_eq _ _ _).trans rfl)))

theorem W6_arg1 (c : Dev nD) : W6 m ρ c (Proc.devRef .tc main_arg1) = X1 m c :=
  (W6_of_ne m ρ c main_arg1 (by decide)).trans (W5_arg1 m ρ c)
theorem W6_arg4 (c : Dev nD) : W6 m ρ c (Proc.devRef .tc main_arg4) = X4 m c :=
  (W6_of_ne m ρ c main_arg4 (by decide)).trans (W5_arg4 m ρ c)
theorem W6_arg5 (c : Dev nD) : W6 m ρ c (Proc.devRef .tc main_arg5) = X5 m c :=
  (W6_of_ne m ρ c main_arg5 (by decide)).trans (W5_arg5 m ρ c)

end Cert.KernelIdeal.Walk

end
-- ==== Proof.WalkB.lean ====
/-
  The kernel program's buffers, boundary by boundary: the second layer.

  The second layer repeats the first on the rectified output of the first:
    * the host operations between the second and third regions recompute, from the edge array alone, the edge sources
      and targets with their self-loops and the weight of every edge — the reference's second copies of the same
      operations; they write neither the first layer's output nor any argument;
    * the third region's array is the product h · W2 of the first layer's output, the reference's second `dot_general`;
    * after the host operations between the last two regions, the aggregated messages are the reference's second
      scatter-add, and the second bias is reshaped to one row;
    * the fourth region's array — the program's result — is the aggregate plus the bias row: the reference's result.
-/
import proofs.«128691_j17205638988259_1_alg».proof.Proof.WalkA

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg)

/-! ## Between the second and third regions: the edge operations again -/

/-- The edge sources with the self-loops appended: the second region left the edge array as launched. -/
theorem W9_v49 (c : Dev nD) : W9 m ρ c (Proc.devRef .tc main_v49) = val_main_v51 (F := Ideal) (X1 m c) :=
  (EdgeWeights.second_sources (W6 m ρ c)).trans (congrArg (val_main_v51 (F := Ideal)) (W6_arg1 m ρ c))

/-- The edge targets with the self-loops appended. -/
theorem W9_v52 (c : Dev nD) : W9 m ρ c (Proc.devRef .tc main_v52) = val_main_v54 (F := Ideal) (X1 m c) :=
  (EdgeWeights.second_targets (W6 m ρ c)).trans (congrArg (val_main_v54 (F := Ideal)) (W6_arg1 m ρ c))

/-- The weight of every edge. -/
theorem W9_v75 (c : Dev nD) : W9 m ρ c (Proc.devRef .tc main_v75) = val_main_v77 (F := Ideal) (X1 m c) :=
  (EdgeWeights.second_weights (W6 m ρ c)).trans (congrArg (val_main_v77 (F := Ideal)) (W6_arg1 m ρ c))

/-- These operations write neither the first layer's output nor an argument. -/
theorem W9_v45 (c : Dev nD) : W9 m ρ c (Proc.devRef .tc main_v45) = val_main_v47 (F := Ideal) (X0 m c) (X1 m c) (X2 m c) (X3 m c) := by
  show StableHlo.after hostOps2_2 (StableHlo.after hostOps2_1 (StableHlo.after hostOps2 (W6 m ρ c))) (Proc.devRef .tc main_v45) = _
  simp only [hostOps2_2, hostOps2_1, hostOps2]
  after_results_simp
  exact W6_v45 m ρ c
theorem W9_arg4 (c : Dev nD) : W9 m ρ c (Proc.devRef .tc main_arg4) = X4 m c := by
  show StableHlo.after hostOps2_2 (StableHlo.after hostOps2_1 (StableHlo.after hostOps2 (W6 m ρ c))) (Proc.devRef .tc main_arg4) = _
  simp only [hostOps2_2, hostOps2_1, hostOps2]
  after_results_simp
  exact W6_arg4 m ρ c
theorem W9_arg5 (c : Dev nD) : W9 m ρ c (Proc.devRef .tc main_arg5) = X5 m c := by
  show StableHlo.after hostOps2_2 (StableHlo.after hostOps2_1 (StableHlo.after hostOps2 (W6 m ρ c))) (Proc.devRef .tc main_arg5) = _
  simp only [hostOps2_2, hostOps2_1, hostOps2]
  after_results_simp
  exact W6_arg5 m ρ c

/-! ## After the third region -/

/-- The third region's array: h · W2, the reference's second `dot_general`. -/
theorem W10_v76 (c : Dev nD) :
    W10 m ρ c (Proc.devRef .tc main_v76) = val_main_v78 (F := Ideal) (X0 m c) (X1 m c) (X2 m c) (X3 m c) (X4 m c) :=
  (W10_arr m ρ c 2).trans ((ProdB.array_eq (V9 m ρ) c).trans
    ((congr (congrArg ProdB.rowsTimes (W9_v45 m ρ c)) (W9_arg4 m ρ c)).trans (Cert.Joins.prodB_eq _ _ _ _ _)))

/-- The region owns none of these buffers. -/
theorem W10_v49 (c : Dev nD) : W10 m ρ c (Proc.devRef .tc main_v49) = val_main_v51 (F := Ideal) (X1 m c) :=
  (W10_of_ne m ρ c main_v49 (by decide)).trans (W9_v49 m ρ c)
theorem W10_v52 (c : Dev nD) : W10 m ρ c (Proc.devRef .tc main_v52) = val_main_v54 (F := Ideal) (X1 m c) :=
  (W10_of_ne m ρ c main_v52 (by decide)).trans (W9_v52 m ρ c)
theorem W10_v75 (c : Dev nD) : W10 m ρ c (Proc.devRef .tc main_v75) = val_main_v77 (F := Ideal) (X1 m c) :=
  (W10_of_ne m ρ c main_v75 (by decide)).trans (W9_v75 m ρ c)
theorem W10_arg5 (c : Dev nD) : W10 m ρ c (Proc.devRef .tc main_arg5) = X5 m c :=
  (W10_of_ne m ρ c main_arg5 (by decide)).trans (W9_arg5 m ρ c)

/-! ## Between the last two regions: gather, weigh, scatter-add; the bias reshaped -/

/-- The aggregated messages of the second layer. -/
theorem W11_v89 (c : Dev nD) :
    W11 m ρ c (Proc.devRef .tc main_v89) = val_main_v91 (F := Ideal) (X0 m c) (X1 m c) (X2 m c) (X3 m c) (X4 m c) := by
  show StableHlo.after hostOps3 (W10 m ρ c) (Proc.devRef .tc main_v89) = _
  simp only [hostOps3]
  after_results_simp
  rw [W10_v49 m ρ c, W10_v52 m ρ c, W10_v75 m ρ c, W10_v76 m ρ c]
  rfl

/-- The second bias as one row. -/
theorem W11_v90 (c : Dev nD) : W11 m ρ c (Proc.devRef .tc main_v90) = shapeCast S1x8 (X5 m c) shapeCasts_S8_S1x8 := by
  show StableHlo.after hostOps3 (W10 m ρ c) (Proc.devRef .tc main_v90) = _
  simp only [hostOps3]
  after_results_simp
  rw [W10_arg5 m ρ c]
  rfl

/-! ## After the fourth region: the result -/

/-- The program's result array at the last boundary is the reference's result of the same six arguments. -/
theorem W12_v91 (c : Dev nD) : W12 m ρ c (Proc.devRef .tc main_v91)
    = val_main_v94 (F := Ideal) (X0 m c) (X1 m c) (X2 m c) (X3 m c) (X4 m c) (X5 m c) :=
  (W12_arr m ρ c 2).trans ((BiasB.array_eq (V11 m ρ) c).trans
    ((congr (congrArg BiasB.rowsPlus (W11_v89 m ρ c)) (W11_v90 m ρ c)).trans ((Cert.Joins.biasB_eq _ _ _).trans rfl)))

end Cert.KernelIdeal.Walk

end
-- ==== Proof.lean ====
/-
  A two-layer graph convolution: the kernel program against its reference, at the ideal values.

  Both programs compute, for node features x, an edge list e, weights W1, W2 and biases b1, b2,
      out = A · (relu (A · (x · W1) + b1) · W2) + b2,
  where A · y gathers the rows of y at the edge sources (self-loops added), scales each by the product of the inverse
  square roots of the degrees of its two ends, and scatter-adds them at the edge targets.  The two programs apply the
  SAME host operations for A (the degrees by scatter-add, rsqrt, the guarded select, the gathers, the scatter-add); they
  differ only in that the kernel program computes the two products and the two bias steps in TensorCore regions, block
  by block over the rows, where the reference uses `dot_general`, broadcasts, `add` and `maximum`.  At the ideal values
  a rounding to bf16 is the identity and a matrix product into the zero accumulator is the `dot_general`'s sum, entry by
  entry, so each region's array is the reference's operation of the same inputs, and the results agree.  No law of
  arithmetic beyond that is used, and the precondition (finite inputs) is never opened.

  The frames of the two kernel programs are the generated ones; the reference's frame is its run with the result
  dropped; the idealization rewrote nothing, so `preserves` is trivial.
-/
import proofs.«128691_j17205638988259_1_alg».proof.Defs
import proofs.«128691_j17205638988259_1_alg».proof.Proof.Gen.Kernel
import proofs.«128691_j17205638988259_1_alg».proof.Proof.Gen.Kernel.Skeleton
import proofs.«128691_j17205638988259_1_alg».proof.Proof.Gen.Kernel.Launch
import proofs.«128691_j17205638988259_1_alg».proof.Proof.Gen.Kernel.Points
import proofs.«128691_j17205638988259_1_alg».proof.Proof.Gen.Kernel.Frame
import proofs.«128691_j17205638988259_1_alg».proof.Proof.Gen.KernelIdeal
import proofs.«128691_j17205638988259_1_alg».proof.Proof.Gen.KernelIdeal.Skeleton
import proofs.«128691_j17205638988259_1_alg».proof.Proof.Gen.KernelIdeal.Launch
import proofs.«128691_j17205638988259_1_alg».proof.Proof.Gen.KernelIdeal.Points
import proofs.«128691_j17205638988259_1_alg».proof.Proof.Gen.KernelIdeal.Frame
import proofs.«128691_j17205638988259_1_alg».proof.Proof.Gen.ReferenceIdeal
import proofs.«128691_j17205638988259_1_alg».proof.Proof.Gen.Pre_finite_inputs
import proofs.«128691_j17205638988259_1_alg».proof.Proof.KernelRun
import proofs.«128691_j17205638988259_1_alg».proof.Proof.RefRead
import proofs.«128691_j17205638988259_1_alg».proof.Proof.WalkB
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs run; the kernel program's result array ends at the last boundary's contents, which is the
    reference's last operation of the six arguments, and the reference's result is that operation of its own
    arguments, which agree with the kernel program's. -/
theorem algebraic : Cert.algebraic_KernelIdeal_ReferenceIdeal := by
  intro m ρ m' ρ' _ hagree
  refine ⟨fun c => Cert.KernelIdeal.Gen.W12 m ρ c (Proc.devRef .tc Cert.KernelIdeal.main_v91),
    Cert.KernelIdeal.Whole.run_last (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v94_eq, (hagree c).1, (hagree c).2.1, (hagree c).2.2.1, (hagree c).2.2.2.1,
    (hagree c).2.2.2.2.1, (hagree c).2.2.2.2.2]
  exact (Cert.KernelIdeal.Walk.W12_v91 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
